-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result kept.

  The generated frame proves that the program runs and leaves its arguments alone; its proof passes through a
  stronger fact, that every buffer outside the kernels' scratch ends at the contents `W4` obtained by folding the
  program's four segments (host operations, first launch, host operations, second launch) from the launch memory.
  Here the same run is stated with that fact kept for the result buffer as well: the result ends at `W4` there,
  which is what the second launch's write-backs leave in its output array.
-/
import proofs.«107964_j44805098832144_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LayerSpec.lean ====
/-
  One graph-convolution layer's dense stage, as a function on the extended reals.

  A layer takes the neighbour means `a` (one row of 128 features per node), the node features `h`, two
  128 × 128 weight matrices `wl`, `wr` and a bias row `b`, and returns, at node `p` and feature `q`,

      max ( Σₖ a[p,k]·wl[k,q]  +  Σₖ h[p,k]·wr[k,q]  +  b[q] ,  0 ).

  Row `p` of the result depends on row `p` of `a` and of `h` only, so the stage computed on a block of
  consecutive rows is the block of the stage computed on all rows: that is the whole relation between a
  row-tiled evaluation and the untiled one, and no law of arithmetic is involved.
-/
import Idealize.ShloMosaic.PureOps.Ideal
import Idealize.ShloMosaic.Lib.ValueIdx

noncomputable section

open scoped BigOperators

namespace Cert.Sage

open Idealize.ShloMosaic Idealize.ShloMosaic.ValueIdx

/-- The dense stage at node `p`, feature `q`: the two row-by-column products, the bias, and the clamp at zero. -/
def denseAt {n : Nat} (a h : (⟨2, ![n, 128]⟩ : Shape).Idx → EReal) (wl wr : (⟨2, ![128, 128]⟩ : Shape).Idx → EReal)
    (b : Fin 128 → EReal) (p : Fin n) (q : Fin 128) : EReal :=
  max ((∑ k : Fin 128, a (ix2 p k) * wl (ix2 k q)) + (∑ k : Fin 128, h (ix2 p k) * wr (ix2 k q)) + b q) 0

/-- The dense stage as an array of `n` rows. -/
def dense {n : Nat} (a h : (⟨2, ![n, 128]⟩ : Shape).Idx → EReal) (wl wr : (⟨2, ![128, 128]⟩ : Shape).Idx → EReal)
    (b : Fin 128 → EReal) : (⟨2, ![n, 128]⟩ : Shape).Idx → EReal :=
  fun i => denseAt a h wl wr b (i 0) (i 1)

theorem dense_apply {n : Nat} (a h : (⟨2, ![n, 128]⟩ : Shape).Idx → EReal) (wl wr : (⟨2, ![128, 128]⟩ : Shape).Idx → EReal)
    (b : Fin 128 → EReal) (p : Fin n) (q : Fin 128) : dense a h wl wr b (ix2 p q) = denseAt a h wl wr b p q := rfl

/-- The stage at `(p, q)` reads row `p` of the two feature arrays, column `q` of the two weight matrices and entry
    `q` of the bias, and nothing else: two sets of operands (the feature arrays possibly of different heights) that
    agree there give the same value. This is how a block of rows is compared with the whole array. -/
theorem denseAt_congr {n n' : Nat} (a h : (⟨2, ![n, 128]⟩ : Shape).Idx → EReal) (a' h' : (⟨2, ![n', 128]⟩ : Shape).Idx → EReal)
    (wl wr wl' wr' : (⟨2, ![128, 128]⟩ : Shape).Idx → EReal) (b b' : Fin 128 → EReal) (p : Fin n) (p' : Fin n') (q q' : Fin 128)
    (ha : ∀ k : Fin 128, a (ix2 p k) = a' (ix2 p' k)) (hh : ∀ k : Fin 128, h (ix2 p k) = h' (ix2 p' k))
    (hwl : ∀ k : Fin 128, wl (ix2 k q) = wl' (ix2 k q')) (hwr : ∀ k : Fin 128, wr (ix2 k q) = wr' (ix2 k q'))
    (hb : b q = b' q') :
    denseAt a h wl wr b p q = denseAt a' h' wl' wr' b' p' q' := by
  unfold denseAt
  simp only [ha, hh, hwl, hwr, hb]

end Cert.Sage

end
-- ==== Proof.DensePayload.lean ====
/-
  What the kernel body computes from its five loaded blocks, read at one element.

  The body casts its four matrix operands to a narrower float format (the identity on the extended reals),
  forms two matrix products into zero accumulators, adds them, adds the bias row broadcast down the block's
  rows, and clamps at zero. Read at row `p`, column `q` of the block this is the dense stage of `LayerSpec`
  on the block's own rows: each product into a zero accumulator is the plain sum over the contracted axis,
  `Σₖ lhs[p,k]·rhs[k,q]`, and the broadcast bias is the bias row's entry `q`.
  Both launches run the same body (the second spells one more identity cast), so both read the same way.
-/
import proofs.«107964_j44805098832144_1_alg».proof.Proof.Gen.KernelIdeal.Skeleton
import proofs.«107964_j44805098832144_1_alg».proof.Proof.LayerSpec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The operand indices of the block-by-matrix contraction at output element `j` and contraction index `k`: the left
    operand is read at (row of `j`, `k`), the right one at (`k`, column of `j`). -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The contraction of a 5000 × 128 block with a 128 × 128 matrix, at output element `(p, q)`: the sum over the
    one contracted axis of the block's row `p` against the matrix's column `q`. -/
theorem contraction_at (lhs : FVec Ideal S5000x128 .bf16) (rhs : FVec Ideal S128x128 .bf16) (p : Fin 5000) (q : Fin 128) :
    (∑ k : dot_S5000x128_S128x128_S5000x128_1_0_0_1_n_n.contr.Idx,
        lhs (dot_S5000x128_S128x128_S5000x128_1_0_0_1_n_n.lhsIdx (ix2 p q) k)
          * rhs (dot_S5000x128_S128x128_S5000x128_1_0_0_1_n_n.rhsIdx (ix2 p q) k))
      = ∑ k : Fin 128, lhs (ix2 p k) * rhs (ix2 k q) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row broadcast down the block's rows reads the row's entry `q` on every row. -/
theorem bias_at (x4 : Vec Ideal S1x128 .f32) (p : Fin 5000) (q : Fin 128) :
    broadcastTo S5000x128 x4 broadcasts_S1x128_S5000x128 (ix2 p q) = x4 (ix2 (0 : Fin 1) q) :=
  broadcastTo_apply x4 broadcasts_S1x128_S5000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's arithmetic with the identity casts of its row blocks removed, at element `(p, q)`. -/
theorem core_at (x0 x1 : Vec Ideal S5000x128 .f32) (x2 x3 : Vec Ideal S128x128 .f32) (x4 : Vec Ideal S1x128 .f32)
    (p : Fin 5000) (q : Fin 128) :
    maximumf (addf (addf
        (matmul dot_S5000x128_S128x128_S5000x128_1_0_0_1_n_n none (truncf .bf16 x0 bitsLt_bf16_f32)
          (truncf .bf16 x2 bitsLt_bf16_f32) (constant (F := Ideal) S5000x128 .f32 0x00000000#32))
        (matmul dot_S5000x128_S128x128_S5000x128_1_0_0_1_n_n none (truncf .bf16 x1 bitsLt_bf16_f32)
          (truncf .bf16 x3 bitsLt_bf16_f32) (constant (F := Ideal) S5000x128 .f32 0x00000000#32)))
        (broadcastTo S5000x128 x4 broadcasts_S1x128_S5000x128))
      (broadcast S5000x128 (Scalar.ofBits (F := Ideal) .f32 0x00000000#32)) (ix2 p q)
    = Cert.Sage.denseAt x0 x1 x2 x3 (fun q => x4 (ix2 (0 : Fin 1) q)) p q := by
  rw [maximumf_apply, addf_apply, addf_apply, broadcast_apply, bias_at]
  simp only [matmul]
  rw [Ideal.matmul_constant_zero_apply, Ideal.matmul_constant_zero_apply, contraction_at, contraction_at]
  show max _ (Ideal.ofBits .f32 0x00000000#32) = _
  rw [Ideal.ofBits_zero_f32]
  rfl

/-- The first launch's body at element `(p, q)` of its block. -/
theorem pay0_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = Cert.Sage.denseAt x0 x1 x2 x3 (fun q => x4 (ix2 (0 : Fin 1) q)) p q := by
  unfold k0_pay1
  simp only [shapeCast_self]
  exact core_at x0 x1 x2 x3 x4 p q

/-- The second launch's body at element `(p, q)` of its block. -/
theorem pay1_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = Cert.Sage.denseAt x0 x1 x2 x3 (fun q => x4 (ix2 (0 : Fin 1) q)) p q := by
  unfold k1_pay1
  simp only [shapeCast_self]
  exact core_at x0 x1 x2 x3 x4 p q

end Cert.KernelIdeal.Payload

end
-- ==== Proof.Blocks0.lean ====
/-
  The first launch, from blocks to the whole array.

  The launch walks 20 grid points; point `t` fetches rows `5000·t … 5000·t + 4999` of the neighbour means and of the
  node features, the two whole weight matrices and the whole bias row, runs the body, and writes the result back
  to the same rows of the output. Since the dense stage at a row reads that row only (`LayerSpec`), what point
  `t` writes back is block `t` of the dense stage of the WHOLE arrays; the 20 blocks are disjoint and cover all
  100000 rows (row `r` lies in block `r / 5000`), so after the launch the output array is the dense stage of
  the arrays the launch found, whatever they were (`V`, a parameter here).
-/
import proofs.«107964_j44805098832144_1_alg».proof.Proof.Gen.KernelIdeal.Frame
import proofs.«107964_j44805098832144_1_alg».proof.Proof.DensePayload
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-tiled windows are at block row `t`, block column 0; the
    weight and bias windows stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The dense stage of the arrays the launch finds: neighbour means, node features, the two weight matrices, the bias row. -/
def result (c : Dev nD) : S100000x128.Idx → EReal :=
  Cert.Sage.dense (n := 100000) (V c main_v22) (V c main_arg0) (V c main_arg2) (V c main_arg3)
    (fun q => V c main_v23 (ix2 (0 : Fin 1) q))

/-- WHAT POINT `t` WRITES BACK is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51⟩ := block_indices t
  funext j
  have hp : (j 0).val < 5000 := (j 0).isLt
  have hq : (j 1).val < 128 := (j 1).isLt
  have hj : j = ix2 (⟨(j 0).val, hp⟩ : Fin 5000) (⟨(j 1).val, hq⟩ : Fin 128) :=
    funext fun a => by match a with | ⟨0, _⟩ => rfl | ⟨1, _⟩ => rfl
  have ht : t.val < 20 := t.isLt
  have hr : t.val * 5000 + (j 0).val < 100000 := by omega
  show k0_pay1 (F := Ideal) (iblk0 V c 0 t) (iblk0 V c 1 t) (iblk0 V c 2 t) (iblk0 V c 3 t) (iblk0 V c 4 t) j
      = result V c (((cfg0.win 5).blk t).view.emb j)
  have hemb : ((cfg0.win 5).blk t).view.emb j
      = ix2 (⟨t.val * 5000 + (j 0).val, hr⟩ : Fin 100000) (⟨(j 1).val, hq⟩ : Fin 128) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 128 + 1 * (j 1).val = (j 1).val; omega)
  rw [hemb]
  refine (congrArg (k0_pay1 (F := Ideal) (iblk0 V c 0 t) (iblk0 V c 1 t) (iblk0 V c 2 t) (iblk0 V c 3 t) (iblk0 V c 4 t)) hj).trans ?_
  refine (Payload.pay0_at (iblk0 V c 0 t) (iblk0 V c 1 t) (iblk0 V c 2 t) (iblk0 V c 3 t) (iblk0 V c 4 t) _ _).trans ?_
  unfold result
  rw [Cert.Sage.dense_apply]
  refine Cert.Sage.denseAt_congr _ _ _ _ _ _ _ _ _ _ _ _ _ _ (fun k => ?_) (fun k => ?_) (fun k => ?_) (fun k => ?_) ?_
  · show V c main_v22 (((cfg0.win 0).blk t).view.emb (ix2 _ k)) = _
    refine congrArg (V c main_v22) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · show V c main_arg0 (((cfg0.win 1).blk t).view.emb (ix2 _ k)) = _
    refine congrArg (V c main_arg0) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 128 + 1 * k.val = k.val; omega
  · show V c main_arg2 (((cfg0.win 2).blk t).view.emb (ix2 k _)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = (j 1).val; omega
  · show V c main_arg3 (((cfg0.win 3).blk t).view.emb (ix2 k _)) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * (j 1).val = (j 1).val; omega
  · show V c main_v23 (((cfg0.win 4).blk t).view.emb (ix2 (0 : Fin 1) _)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * (j 1).val = (j 1).val; omega

/-- An index of the array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every row is in some point's block: row `r` in block `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by show _ < 20; omega
  obtain ⟨-, -, -, -, -, -, -, -, -, -, e50, e51⟩ := block_indices ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- THE OUTPUT ARRAY after the launch is the dense stage of the arrays the launch found. -/
theorem final (c : Dev nD) : (dat0 V c).arrAt 5 cfg0.N = result V c :=
  (dat0 V c).arrAt_eq_of_cover 5 (result V c) (fun t _ => flushed_eq V c t) covered

end Cert.KernelIdeal.Layer0

end
-- ==== Proof.RefLayer.lean ====
/-
  The reference's two layers as the dense stage.

  The reference's first layer result is, element by element, the clamp at zero of the sum of two host matrix
  products and the bias broadcast over the rows; the host's matrix product on the extended reals is the plain
  sum over the contracted axis, so the layer is the dense stage of `LayerSpec` applied to its neighbour means,
  its input features, its weights and its bias. The second layer is the same stage applied to the second
  layer's neighbour means, the first layer's result, and the second layer's weights and bias.
-/
import proofs.«107964_j44805098832144_1_alg».proof.Proof.Gen.ReferenceIdeal.Read
import proofs.«107964_j44805098832144_1_alg».proof.Proof.LayerSpec

noncomputable section

open scoped BigOperators

namespace Cert.ReferenceIdeal.Layers

open Cert.ReferenceIdeal Cert.ReferenceIdeal.Read Idealize.ShloMosaic Idealize.ShloMosaic.ValueIdx

/-- The zero the clamp compares with is the real number zero. -/
theorem zero_word : (FloatOps.ofBits (F := Ideal) .f32 0x00000000#32 : EReal) = 0 := Ideal.ofBits_zero_f32

/-- The first layer's result is the dense stage of the first layer's neighbour means and the input features. -/
theorem first (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = Cert.Sage.dense (n := 100000) (val_main_v22 (F := Ideal) x0 x1) x0 x2 x3 (fun q => x4 (ix1 q)) := by
  funext i
  obtain ⟨p, q, rfl⟩ : ∃ (p : Fin 100000) (q : Fin 128), i = ix2 p q := ⟨i 0, i 1, eq_ix2 i⟩
  have e1 : ∀ k : Fin 128, lidx_main_v23 (ix2 p q) k = ix2 p k :=
    fun k => funext fun a => Fin.ext (by match a with | ⟨0, _⟩ => rfl | ⟨1, _⟩ => rfl)
  have e2 : ∀ k : Fin 128, ridx_main_v23 (ix2 p q) k = ix2 k q :=
    fun k => funext fun a => Fin.ext (by match a with | ⟨0, _⟩ => rfl | ⟨1, _⟩ => rfl)
  have e3 : ∀ k : Fin 128, lidx_main_v24 (ix2 p q) k = ix2 p k :=
    fun k => funext fun a => Fin.ext (by match a with | ⟨0, _⟩ => rfl | ⟨1, _⟩ => rfl)
  have e4 : ∀ k : Fin 128, ridx_main_v24 (ix2 p q) k = ix2 k q :=
    fun k => funext fun a => Fin.ext (by match a with | ⟨0, _⟩ => rfl | ⟨1, _⟩ => rfl)
  have e5 : idx_main_v26 (idx_main_v27 (ix2 p q)) = ix1 q :=
    funext fun a => Fin.ext (by match a with | ⟨0, _⟩ => rfl)
  rw [val_main_v29_apply, val_main_v28_apply, val_main_v25_apply, val_main_v23_apply, val_main_v24_apply,
    val_main_v27_apply, val_main_v26_apply, val_main_call0_v0_apply, val_main_call0_cst_apply, zero_word]
  simp only [e1, e2, e3, e4, e5]
  rfl

/-- The second layer's result is the dense stage of the second layer's neighbour means and the first layer's result. -/
theorem second (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v48 (F := Ideal) x0 x1 x2 x3 x4 x5 x6 x7
      = Cert.Sage.dense (n := 100000) (val_main_v41 (F := Ideal) x0 x1 x2 x3 x4) (val_main_v29 (F := Ideal) x0 x1 x2 x3 x4)
          x5 x6 (fun q => x7 (ix1 q)) := by
  funext i
  obtain ⟨p, q, rfl⟩ : ∃ (p : Fin 100000) (q : Fin 128), i = ix2 p q := ⟨i 0, i 1, eq_ix2 i⟩
  have e1 : ∀ k : Fin 128, lidx_main_v42 (ix2 p q) k = ix2 p k :=
    fun k => funext fun a => Fin.ext (by match a with | ⟨0, _⟩ => rfl | ⟨1, _⟩ => rfl)
  have e2 : ∀ k : Fin 128, ridx_main_v42 (ix2 p q) k = ix2 k q :=
    fun k => funext fun a => Fin.ext (by match a with | ⟨0, _⟩ => rfl | ⟨1, _⟩ => rfl)
  have e3 : ∀ k : Fin 128, lidx_main_v43 (ix2 p q) k = ix2 p k :=
    fun k => funext fun a => Fin.ext (by match a with | ⟨0, _⟩ => rfl | ⟨1, _⟩ => rfl)
  have e4 : ∀ k : Fin 128, ridx_main_v43 (ix2 p q) k = ix2 k q :=
    fun k => funext fun a => Fin.ext (by match a with | ⟨0, _⟩ => rfl | ⟨1, _⟩ => rfl)
  have e5 : idx_main_v45 (idx_main_v46 (ix2 p q)) = ix1 q :=
    funext fun a => Fin.ext (by match a with | ⟨0, _⟩ => rfl)
  rw [val_main_v48_apply, val_main_v47_apply, val_main_v44_apply, val_main_v42_apply, val_main_v43_apply,
    val_main_v46_apply, val_main_v45_apply, val_main_call1_v0_apply, val_main_call1_cst_apply, zero_word]
  simp only [e1, e2, e3, e4, e5]
  rfl

end Cert.ReferenceIdeal.Layers

end
-- ==== Proof.FirstLayer.lean ====
/-
  The first layer inside the kernel's program.

  Before the first launch the program's host operations build the neighbour means of the input features (the
  same chain of operations the reference applies: scatter-add of gathered rows over the edges, divided by the
  clamped in-degree) and view the bias as one row. So the first launch finds the reference's own neighbour
  means, the input features, the first layer's weights and bias, and by `Blocks0` leaves in its output array the
  dense stage of those — which is the reference's first layer (`RefLayer`).
  The host values that the second layer reuses (the two rows of the edge list and the clamped in-degree column)
  are read here too: the first launch writes none of them.
-/
import proofs.«107964_j44805098832144_1_alg».proof.Proof.Blocks0
import proofs.«107964_j44805098832144_1_alg».proof.Proof.RefLayer
import Idealize.ShloMosaic.Lib.StableHlo.Run

set_option maxRecDepth 16384

noncomputable section

namespace Cert.KernelIdeal.First

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-- An argument array's contents at launch. -/
abbrev arg (b : Ref sig .tc) : Buf (Elt Ideal) ((c.tc : Thread nD τ).loc b) := m ((c.tc : Thread nD τ).loc b)

set_option maxHeartbeats 8000000 in
/-- The first launch finds the reference's first-layer neighbour means of the input features. -/
theorem means : (V1 m ρ c main_v22 : S100000x128.Idx → EReal)
    = Cert.ReferenceIdeal.Read.val_main_v22 (F := Ideal) (arg m c main_arg0) (arg m c main_arg1) := by
  show StableHlo.after hostOps0 (W0 m ρ c) (Proc.devRef .tc main_v22) = _
  after_results_simp <;> rfl

theorem features : (V1 m ρ c main_arg0 : S100000x128.Idx → EReal) = arg m c main_arg0 := by
  show StableHlo.after hostOps0 (W0 m ρ c) (Proc.devRef .tc main_arg0) = _
  after_results_simp <;> rfl

theorem weights_l : (V1 m ρ c main_arg2 : S128x128.Idx → EReal) = arg m c main_arg2 := by
  show StableHlo.after hostOps0 (W0 m ρ c) (Proc.devRef .tc main_arg2) = _
  after_results_simp <;> rfl

theorem weights_r : (V1 m ρ c main_arg3 : S128x128.Idx → EReal) = arg m c main_arg3 := by
  show StableHlo.after hostOps0 (W0 m ρ c) (Proc.devRef .tc main_arg3) = _
  after_results_simp <;> rfl

/-- A vector of 128 entries viewed as one row: entry `q` of the row is entry `q` of the vector. -/
theorem row_view (x : S128.Idx → EReal) (q : Fin 128) :
    shapeCast S1x128 x shapeCasts_S128_S1x128 (ix2 (0 : Fin 1) q) = x (ix1 q) :=
  shapeCast_apply x shapeCasts_S128_S1x128 (ix2 (0 : Fin 1) q) (ix1 q)
    (by rewrite [Shape.rowMajor_val_one, Shape.rowMajor_val_two]; show q.val = 0 * 128 + q.val; omega)

/-- The bias viewed as one row holds the bias's entries. -/
theorem bias (q : Fin 128) : (V1 m ρ c main_v23 : S1x128.Idx → EReal) (ix2 (0 : Fin 1) q) = arg m c main_arg4 (ix1 q) := by
  have e : (V1 m ρ c main_v23 : S1x128.Idx → EReal) = shapeCast _ (arg m c main_arg4) shapeCasts_S128_S1x128 := by
    show StableHlo.after hostOps0 (W0 m ρ c) (Proc.devRef .tc main_v23) = _
    after_results_simp <;> rfl
  rw [e]
  exact row_view _ q

/-- The dense stage of what the first launch finds is the reference's first layer. -/
theorem stage : Layer0.result (V1 m ρ) c
    = Cert.ReferenceIdeal.Read.val_main_v29 (F := Ideal) (arg m c main_arg0) (arg m c main_arg1) (arg m c main_arg2)
        (arg m c main_arg3) (arg m c main_arg4) := by
  unfold Layer0.result
  rw [means, features, weights_l, weights_r]
  refine (congrArg (Cert.Sage.dense (n := 100000) _ _ _ _) (funext (bias m ρ c))).trans ?_
  exact (Cert.ReferenceIdeal.Layers.first _ _ _ _ _).symm

/-- After the first launch its output array holds the reference's first layer. -/
theorem layer : W2 m ρ c (Proc.devRef .tc main_v24)
    = Cert.ReferenceIdeal.Read.val_main_v29 (F := Ideal) (arg m c main_arg0) (arg m c main_arg1) (arg m c main_arg2)
        (arg m c main_arg3) (arg m c main_arg4) :=
  (W2_arr m ρ c 5).trans ((Layer0.final (V1 m ρ) c).trans (stage m ρ c))

/-- The edge list's source row, as the host read it before the first launch, is still there after it. -/
theorem sources : (W2 m ρ c (Proc.devRef .tc main_v1) : S1600000.Idx → BitVec 32)
    = Cert.ReferenceIdeal.Read.val_main_v1 (F := Ideal) (arg m c main_arg1) := by
  rw [W2_of_ne m ρ c main_v1 (by decide)]
  show StableHlo.after hostOps0 (W0 m ρ c) (Proc.devRef .tc main_v1) = _
  after_results_simp <;> rfl

/-- So is its destination row. -/
theorem destinations : (W2 m ρ c (Proc.devRef .tc main_v3) : S1600000.Idx → BitVec 32)
    = Cert.ReferenceIdeal.Read.val_main_v3 (F := Ideal) (arg m c main_arg1) := by
  rw [W2_of_ne m ρ c main_v3 (by decide)]
  show StableHlo.after hostOps0 (W0 m ρ c) (Proc.devRef .tc main_v3) = _
  after_results_simp <;> rfl

set_option maxHeartbeats 4000000 in
/-- And the clamped in-degree column. -/
theorem degrees : (W2 m ρ c (Proc.devRef .tc main_v10) : S100000x1.Idx → EReal)
    = Cert.ReferenceIdeal.Read.val_main_v10 (F := Ideal) (arg m c main_arg1) := by
  rw [W2_of_ne m ρ c main_v10 (by decide)]
  show StableHlo.after hostOps0 (W0 m ρ c) (Proc.devRef .tc main_v10) = _
  after_results_simp <;> rfl

/-- An argument array that no launch and no host operation writes is as launched after the first launch. -/
theorem kept (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c.tc : Thread nD τ).loc b) :=
  (W2_of_ne m ρ c b hb).trans h0

end Cert.KernelIdeal.First

end
-- ==== Proof.Blocks1.lean ====
/-
  The second launch, from blocks to the whole array.

  The launch walks 20 grid points; point `t` fetches rows `5000·t … 5000·t + 4999` of the neighbour means and of the
  node features, the second layer's two whole weight matrices and its whole bias row, runs the same body, and writes the result back
  to the same rows of the output. Since the dense stage at a row reads that row only (`LayerSpec`), what point
  `t` writes back is block `t` of the dense stage of the WHOLE arrays; the 20 blocks are disjoint and cover all
  100000 rows (row `r` lies in block `r / 5000`), so after the launch the output array is the dense stage of
  the arrays the launch found, whatever they were (`V`, a parameter here).
-/
import proofs.«107964_j44805098832144_1_alg».proof.Proof.Gen.KernelIdeal.Frame
import proofs.«107964_j44805098832144_1_alg».proof.Proof.DensePayload
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-tiled windows are at block row `t`, block column 0; the
    weight and bias windows stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The dense stage of the arrays the launch finds: neighbour means, node features, the two weight matrices, the bias row. -/
def result (c : Dev nD) : S100000x128.Idx → EReal :=
  Cert.Sage.dense (n := 100000) (V c main_v36) (V c main_v24) (V c main_arg5) (V c main_arg6)
    (fun q => V c main_v37 (ix2 (0 : Fin 1) q))

/-- WHAT POINT `t` WRITES BACK is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51⟩ := block_indices t
  funext j
  have hp : (j 0).val < 5000 := (j 0).isLt
  have hq : (j 1).val < 128 := (j 1).isLt
  have hj : j = ix2 (⟨(j 0).val, hp⟩ : Fin 5000) (⟨(j 1).val, hq⟩ : Fin 128) :=
    funext fun a => by match a with | ⟨0, _⟩ => rfl | ⟨1, _⟩ => rfl
  have ht : t.val < 20 := t.isLt
  have hr : t.val * 5000 + (j 0).val < 100000 := by omega
  show k1_pay1 (F := Ideal) (iblk1 V c 0 t) (iblk1 V c 1 t) (iblk1 V c 2 t) (iblk1 V c 3 t) (iblk1 V c 4 t) j
      = result V c (((cfg1.win 5).blk t).view.emb j)
  have hemb : ((cfg1.win 5).blk t).view.emb j
      = ix2 (⟨t.val * 5000 + (j 0).val, hr⟩ : Fin 100000) (⟨(j 1).val, hq⟩ : Fin 128) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 128 + 1 * (j 1).val = (j 1).val; omega)
  rw [hemb]
  refine (congrArg (k1_pay1 (F := Ideal) (iblk1 V c 0 t) (iblk1 V c 1 t) (iblk1 V c 2 t) (iblk1 V c 3 t) (iblk1 V c 4 t)) hj).trans ?_
  refine (Payload.pay1_at (iblk1 V c 0 t) (iblk1 V c 1 t) (iblk1 V c 2 t) (iblk1 V c 3 t) (iblk1 V c 4 t) _ _).trans ?_
  unfold result
  rw [Cert.Sage.dense_apply]
  refine Cert.Sage.denseAt_congr _ _ _ _ _ _ _ _ _ _ _ _ _ _ (fun k => ?_) (fun k => ?_) (fun k => ?_) (fun k => ?_) ?_
  · show V c main_v36 (((cfg1.win 0).blk t).view.emb (ix2 _ k)) = _
    refine congrArg (V c main_v36) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · show V c main_v24 (((cfg1.win 1).blk t).view.emb (ix2 _ k)) = _
    refine congrArg (V c main_v24) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 128 + 1 * k.val = k.val; omega
  · show V c main_arg5 (((cfg1.win 2).blk t).view.emb (ix2 k _)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = (j 1).val; omega
  · show V c main_arg6 (((cfg1.win 3).blk t).view.emb (ix2 k _)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * (j 1).val = (j 1).val; omega
  · show V c main_v37 (((cfg1.win 4).blk t).view.emb (ix2 (0 : Fin 1) _)) = _
    refine congrArg (V c main_v37) (funext fun a => Fin.ext ?_)
    match a with
    | ⟨0, _⟩ => show win1_4.index t (0 : Fin 2) * 1 + 1 * 0 = 0; omega
    | ⟨1, _⟩ => show win1_4.index t (1 : Fin 2) * 128 + 1 * (j 1).val = (j 1).val; omega

/-- An index of the array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v38).slice (win1_5.rect t)).set ↔ _
  rw [View.set_slice_whole, Rect.mem_set_unit]
  exact Iff.rfl

/-- Every row is in some point's block: row `r` in block `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by show _ < 20; omega
  obtain ⟨-, -, -, -, -, -, -, -, -, -, e50, e51⟩ := block_indices ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- THE OUTPUT ARRAY after the launch is the dense stage of the arrays the launch found. -/
theorem final (c : Dev nD) : (dat1 V c).arrAt 5 cfg1.N = result V c :=
  (dat1 V c).arrAt_eq_of_cover 5 (result V c) (fun t _ => flushed_eq V c t) covered

end Cert.KernelIdeal.Layer1

end
-- ==== Proof.SecondLayer.lean ====
/-
  The second layer inside the kernel's program, and the program's result.

  Between the two launches the host operations gather the first launch's output along the edges, scatter-add it
  per destination node and divide by the clamped in-degree computed before the first launch: the reference's
  second-layer neighbour means, of the first layer's result. The second launch therefore finds those means, the
  first layer's result, the second layer's weights and bias, and by `Blocks1` leaves in the result array the
  dense stage of them — the reference's second layer (`RefLayer`), which is the reference's result.
-/
import proofs.«107964_j44805098832144_1_alg».proof.Proof.FirstLayer
import proofs.«107964_j44805098832144_1_alg».proof.Proof.Blocks1

set_option maxRecDepth 16384

noncomputable section

namespace Cert.KernelIdeal.Second

open Cert.KernelIdeal Cert.KernelIdeal.Gen Idealize.ShloMosaic Idealize.ShloMosaic.TcCoe Idealize.ShloMosaic.ValueIdx
open Idealize.SL.Sem Idealize.ShloMosaic.StableHlo
open Cert.KernelIdeal.First (arg)

variable (m : (ℓ : Loc nD τ sig) → Buf (Elt Ideal) ℓ) (ρ : Dev nD → PrngReg) (c : Dev nD)

/-- The second launch finds the first layer's result where the first launch left it. -/
theorem features : (V3 m ρ c main_v24 : S100000x128.Idx → EReal)
    = Cert.ReferenceIdeal.Read.val_main_v29 (F := Ideal) (arg m c main_arg0) (arg m c main_arg1) (arg m c main_arg2)
        (arg m c main_arg3) (arg m c main_arg4) := by
  refine Eq.trans ?_ (First.layer m ρ c)
  show StableHlo.after hostOps1 (W2 m ρ c) (Proc.devRef .tc main_v24) = _
  after_results_simp <;> rfl

set_option maxHeartbeats 4000000 in
/-- It finds the reference's second-layer neighbour means of that result. -/
theorem means : (V3 m ρ c main_v36 : S100000x128.Idx → EReal)
    = Cert.ReferenceIdeal.Read.val_main_v41 (F := Ideal) (arg m c main_arg0) (arg m c main_arg1) (arg m c main_arg2)
        (arg m c main_arg3) (arg m c main_arg4) := by
  show StableHlo.after hostOps1 (W2 m ρ c) (Proc.devRef .tc main_v36) = _
  after_results_simp
  rw [First.layer, First.sources, First.destinations, First.degrees]
  rfl

theorem weights_l : (V3 m ρ c main_arg5 : S128x128.Idx → EReal) = arg m c main_arg5 := by
  show StableHlo.after hostOps1 (W2 m ρ c) (Proc.devRef .tc main_arg5) = _
  after_results_simp
  refine First.kept m ρ c main_arg5 (by decide) ?_
  after_results_simp <;> rfl

theorem weights_r : (V3 m ρ c main_arg6 : S128x128.Idx → EReal) = arg m c main_arg6 := by
  show StableHlo.after hostOps1 (W2 m ρ c) (Proc.devRef .tc main_arg6) = _
  after_results_simp
  refine First.kept m ρ c main_arg6 (by decide) ?_
  after_results_simp <;> rfl

/-- The second layer's bias viewed as one row holds the bias's entries. -/
theorem bias (q : Fin 128) : (V3 m ρ c main_v37 : S1x128.Idx → EReal) (ix2 (0 : Fin 1) q) = arg m c main_arg7 (ix1 q) := by
  have e : (V3 m ρ c main_v37 : S1x128.Idx → EReal) = shapeCast _ (arg m c main_arg7) shapeCasts_S128_S1x128 := by
    show StableHlo.after hostOps1 (W2 m ρ c) (Proc.devRef .tc main_v37) = _
    after_results_simp
    rw [First.kept m ρ c main_arg7 (by decide) (by after_results_simp <;> rfl)]
    rfl
  rw [e]
  exact First.row_view _ q

/-- The dense stage of what the second launch finds is the reference's second layer. -/
theorem stage : Layer1.result (V3 m ρ) c
    = Cert.ReferenceIdeal.Read.val_main_v48 (F := Ideal) (arg m c main_arg0) (arg m c main_arg1) (arg m c main_arg2)
        (arg m c main_arg3) (arg m c main_arg4) (arg m c main_arg5) (arg m c main_arg6) (arg m c main_arg7) := by
  unfold Layer1.result
  rw [means, features, weights_l, weights_r]
  refine (congrArg (Cert.Sage.dense (n := 100000) _ _ _ _) (funext (bias m ρ c))).trans ?_
  exact (Cert.ReferenceIdeal.Layers.second _ _ _ _ _ _ _ _).symm

/-- THE RESULT: after the second launch the result array holds the reference's second layer of the arguments. -/
theorem result : W4 m ρ c (Proc.devRef .tc main_v38)
    = Cert.ReferenceIdeal.Read.val_main_v48 (F := Ideal) (arg m c main_arg0) (arg m c main_arg1) (arg m c main_arg2)
        (arg m c main_arg3) (arg m c main_arg4) (arg m c main_arg5) (arg m c main_arg6) (arg m c main_arg7) :=
  (W4_arr m ρ c 5).trans ((Layer1.final (V3 m ρ) c).trans (stage m ρ c))

end Cert.KernelIdeal.Second

end
-- ==== Proof.lean ====
/-
  A two-layer mean-aggregation graph network, row-tiled kernel against the untiled reference, on the extended reals.

  Each layer maps node features `h` to  max( mean(h) · Wl + h · Wr + b , 0 ),  where `mean(h)` is, per node, the
  sum of the features of the sources of its incoming edges divided by its in-degree clamped below at 1. Both
  programs build `mean(h)` by the same host operations (gather along the edges, scatter-add per destination,
  divide). They differ in the dense stage only: the reference forms the two matrix products over all 100000
  rows at once; the kernel walks 20 blocks of 5000 rows, casts the operands to a narrower float format (the
  identity on the extended reals), accumulates each product into a zero block, and views the bias as one row.

  The dense stage at a row reads that row of its operands only, so its restriction to a block of rows is the
  stage of the block, and the blocks tile the rows; a product accumulated into zero is the plain sum over the
  contracted axis, which is what the host's matrix product is. Hence after the first launch the kernel's
  intermediate array is the reference's first layer, the host operations between the launches turn it into the
  reference's second-layer means, and after the second launch the result array is the reference's second layer.
  No law of arithmetic beyond  0 + s = s  is used, so the inputs' finiteness is never opened.

  The ideal pass rewrote nothing in the kernel, so the kernel's idealization is its own text.
-/
import proofs.«107964_j44805098832144_1_alg».proof.Defs
import proofs.«107964_j44805098832144_1_alg».proof.Proof.Gen.Kernel
import proofs.«107964_j44805098832144_1_alg».proof.Proof.Gen.Kernel.Skeleton
import proofs.«107964_j44805098832144_1_alg».proof.Proof.Gen.Kernel.Launch
import proofs.«107964_j44805098832144_1_alg».proof.Proof.Gen.Kernel.Points
import proofs.«107964_j44805098832144_1_alg».proof.Proof.Gen.Kernel.Frame
import proofs.«107964_j44805098832144_1_alg».proof.Proof.Gen.KernelIdeal
import proofs.«107964_j44805098832144_1_alg».proof.Proof.Gen.KernelIdeal.Skeleton
import proofs.«107964_j44805098832144_1_alg».proof.Proof.Gen.KernelIdeal.Launch
import proofs.«107964_j44805098832144_1_alg».proof.Proof.Gen.KernelIdeal.Points
import proofs.«107964_j44805098832144_1_alg».proof.Proof.Gen.KernelIdeal.Frame
import proofs.«107964_j44805098832144_1_alg».proof.Proof.Gen.ReferenceIdeal
import proofs.«107964_j44805098832144_1_alg».proof.Proof.Gen.Pre_finite_inputs
import proofs.«107964_j44805098832144_1_alg».proof.Proof.Gen.ReferenceIdeal.Run
import proofs.«107964_j44805098832144_1_alg».proof.Proof.Gen.ReferenceIdeal.Read
import proofs.«107964_j44805098832144_1_alg».proof.Proof.KernelRun
import proofs.«107964_j44805098832144_1_alg».proof.Proof.SecondLayer
import Idealize.ShloMosaic.Adequacy
import Idealize.ShloMosaic.Init

noncomputable section

namespace Cert.Proof

open Idealize.ShloMosaic Idealize.SL.Sem

/-- The three programs run, fault nowhere and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the arguments both idealized programs end with the reference's second layer of
    the arguments in their result arrays: the kernel by its two launches (`SecondLayer`), the reference by its run. -/
theorem algebraic : Cert.algebraic_KernelIdeal_ReferenceIdeal := by
  intro m ρ m' ρ' _ hagree
  refine ⟨fun c => Cert.ReferenceIdeal.Read.val_main_v48 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Second.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
